-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) (main_arg1 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x2048x3 : Shape := ⟨3, ![8, 2048, 3]⟩
abbrev S3x8x2048 : Shape := ⟨3, ![3, 8, 2048]⟩
abbrev S1x1 : Shape := ⟨2, ![1, 1]⟩
abbrev S3x1x2048 : Shape := ⟨3, ![3, 1, 2048]⟩
abbrev S3x2048 : Shape := ⟨2, ![3, 2048]⟩
abbrev S2048 : Shape := ⟨1, ![2048]⟩
abbrev S1x2048 : Shape := ⟨2, ![1, 2048]⟩
abbrev S8x2048 : Shape := ⟨2, ![8, 2048]⟩
abbrev S2048x2048 : Shape := ⟨2, ![2048, 2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S1x1x2048 : Shape := ⟨3, ![1, 1, 2048]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S3x8x2048, .f32⟩
  | .hbm, ⟨3, _⟩ => ⟨S3x8x2048, .f32⟩
  | .hbm, ⟨4, _⟩ => ⟨S1x1, .f32⟩
  | .hbm, ⟨5, _⟩ => ⟨S_, .f32⟩
  | .local _ .vmem, ⟨0, _⟩ => ⟨S3x8x2048, .f32⟩
  | .local _ .vmem, ⟨1, _⟩ => ⟨S3x8x2048, .f32⟩
  | .local _ .vmem, ⟨2, _⟩ => ⟨S1x1, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_off1 (i : grid0.Coords) (c0_i32 : BitVec 32) : Fin 3 → Nat :=
  let c0 : Index := 0#32
  let c8_i32 : BitVec 32 := 8#32
  let arg0 : BitVec 32 := BitVec.ofNat 32 (i 0).val
  let v1 : BitVec 32 := Scalar.muli c8_i32 arg0
  let v2 : BitVec 32 := Scalar.addi v1 c0_i32
  let v3 : Index := Scalar.indexCast v2
  let c0_0 : Index := 0#32
  ![0, v3.toNat, 0]
def k0_cond1 (i : grid0.Coords) : BitVec 1 :=
  let arg0 : BitVec 32 := BitVec.ofNat 32 (i 0).val
  let c0_i32_182 : BitVec 32 := 0#32
  let v393 : BitVec 1 := Scalar.cmpi .eq arg0 c0_i32_182
  let v394 : BitVec 32 := Scalar.extui v393
  let c0_i32_183 : BitVec 32 := 0#32
  let v395 : BitVec 1 := Scalar.cmpi .ne v394 c0_i32_183
  v395

def k0_cond2 (i : grid0.Coords) : BitVec 1 :=
  let arg0 : BitVec 32 := BitVec.ofNat 32 (i 0).val
  let c0_i32_184 : BitVec 32 := 0#32
  let v396 : BitVec 1 := Scalar.cmpi .ne arg0 c0_i32_184
  let v397 : BitVec 32 := Scalar.extui v396
  let c0_i32_185 : BitVec 32 := 0#32
  let v398 : BitVec 1 := Scalar.cmpi .ne v397 c0_i32_185
  v398

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S8x2048x3_S3x8x2048_2_0_1 : S8x2048x3.Transposes [2, 0, 1] S3x8x2048
  h_S3x1x2048 : 0 < S3x1x2048.numel
  shapeCasts_S3x1x2048_S3x2048 : S3x1x2048.ShapeCasts S3x2048
  reduces_S3x2048_S2048 : S3x2048.Reduces [0] S2048
  shapeCasts_S2048_S1x2048 : S2048.ShapeCasts S1x2048
  concatenates_S3x2048_S1x2048_S1x2048_S3x2048_S8x2048_d0 : Shape.Concatenates [S3x2048, S1x2048, S1x2048, S3x2048] S8x2048 0
  reduces_S2048x2048_S2048 : S2048x2048.Reduces [1] S2048
  shapeCasts_S2048_S2048x1 : S2048.ShapeCasts S2048x1
  reduces_S2048x2048_S2048_2 : S2048x2048.Reduces [0] S2048
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  shapeCasts_S1x2048_S1x1x2048 : S1x2048.ShapeCasts S1x1x2048
  reduces_S1x1x2048_S1 : S1x1x2048.Reduces [1, 2] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S8x2048_S8x2048_S2048x2048_0_0_1_1_n_n_wf : DotDims.WF S8x2048 S8x2048 S2048x2048 [0] [0] [1] [1] [] []
  hrank0 : 0 < grid0.rank
  k0_off1_inb : ∀ i : grid0.Coords, ∀ (r : Fin 8), ∀ a, (k0_off1 i (BitVec.ofNat 32 r.val)) a + S3x1x2048.size a ≤ S3x8x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x8x2048.size a ≤ S3x8x2048.size a
  hwx0_0 : ∀ i : grid0.Coords, EltTy.bits .f32 = 32 ∨ (Rect.block (s := S3x8x2048) S3x8x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8x2048.size a ≤ S3x8x2048.size a
  hwx0_1 : ∀ i : grid0.Coords, EltTy.bits .f32 = 32 ∨ (Rect.block (s := S3x8x2048) S3x8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S8x2048_S8x2048_S2048x2048_0_0_1_1_n_n : DotDims S8x2048 S8x2048 S2048x2048 where
  lhsContracting := [0]
  rhsContracting := [0]
  lhsNonContracting := [1]
  rhsNonContracting := [1]
  lhsBatch := []
  rhsBatch := []
  wf := dot_S8x2048_S8x2048_S2048x2048_0_0_1_1_n_n_wf

abbrev win0_0 : Pipeline.Window sig grid0 :=
  Pipeline.Window.ofSpec (Memref.whole main_v0) S3x8x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S8x2048x3 : Shape := ⟨3, ![8, 2048, 3]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x1x2048 : Shape := ⟨3, ![8, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x3, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x3, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8x2048x3_S8x2048_d2 : S8x2048x3.ReducesTo [2] S8x2048
  h_S_ : 0 < S_.numel
  bcast_S8x2048_S8x2048x1_0_1 : S8x2048.BroadcastsInDim S8x2048x1 (![0, 1] : Fin 2 → Fin S8x2048x1.rank)
  transposes_S8x2048x1_S8x1x2048_0_2_1 : S8x2048x1.Transposes [0, 2, 1] S8x1x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  reducesTo_S8x2048x2048_S8x2048_d1 : S8x2048x2048.ReducesTo [1] S8x2048
  reducesTo_S8x2048_S_d0_1 : S8x2048.ReducesTo [0, 1] S_
  dot_S8x2048x3_S8x2048x3_S8x2048x2048_2_2_1_1_0_0_wf : DotDims.WF S8x2048x3 S8x2048x3 S8x2048x2048 [2] [2] [1] [1] [0] [0]

variable [Facts₀]

def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf

class Facts : Prop extends Facts₀ where

variable [Facts]
-- ==== Proof.KernelBody.lean ====
/-
  What one run of the kernel's body leaves in its 1×1 output block, at any float instance: the eight batches'
  contributions added one after the other to a zero, each batch's table of pairwise values built from the three
  coordinate rows of either cloud that the body loads for that batch.
-/
import proofs.«181836_g19164144075462_retrytranche2_391_24_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem zero_offsets : (![0, 0] : Fin 2 → Nat) = fun _ => 0 := funext fun a => by fin_cases a <;> rfl

/-- Batch `u`'s three coordinate rows of a staged [3, 8, 2048] block: the rectangle at (0, 8·g + u, 0) of sizes
    (3, 1, 2048), `g` the grid coordinate. -/
def rows (i : grid0.Coords) (x : Vec F S3x8x2048 .f32) (u : Fin 8) : Vec F S3x1x2048 .f32 :=
  View.ld x (Rect.unit (s := S3x8x2048) (k0_off1 i (BitVec.ofNat 32 u.val)) S3x1x2048.size (k0_off1_inb i u))

/-- One batch's 2048 × 2048 table: entry (n, m) is the matrix unit's sum over eight rows of the first cloud's
    augmented column n times the second's augmented column m. -/
def table (a b : Vec F S3x1x2048 .f32) : FVec F S2048x2048 .f32 := k0_pay3 a b

/-- One batch's contribution added to the running value: the sum over n of the clamped row minima divided by the
    number of points, then the same of the column minima. -/
def addBatch (s : FVec F S1x1 .f32) (d : FVec F S2048x2048 .f32) : FVec F S1x1 .f32 := k0_pay6 s d

/-- The zero the running value starts from. -/
def start : FVec F S1x1 .f32 := k0_pay2

/-- The eight batches in order. -/
def total (a b : Fin 8 → Vec F S3x1x2048 .f32) : FVec F S1x1 .f32 :=
  addBatch (addBatch (addBatch (addBatch (addBatch (addBatch (addBatch (addBatch start
    (table (a 0) (b 0))) (table (a 1) (b 1))) (table (a 2) (b 2))) (table (a 3) (b 3)))
    (table (a 4) (b 4))) (table (a 5) (b 5))) (table (a 6) (b 6))) (table (a 7) (b 7))

/-- The body's one store covers the output block, and what it stores is `total` of the loaded rows: the body's
    operations are exactly those of `total`, in the same order. -/
theorem out_eq (c : Dev nD) (i : grid0.Coords) (a1 : Memref sig .tc .vmem S3x8x2048 .f32) (h1 : a1.IsWhole)
    (a2 : Memref sig .tc .vmem S3x8x2048 .f32) (h2 : a2.IsWhole) (a3 : Memref sig .tc .vmem S1x1 .f32) (h3 : a3.IsWhole)
    (hc0 : cond0_0 i) (hc1 : ¬cond0_1 i) (x0 x1 : Vec F S3x8x2048 .f32) :
    out0_A_2 c i a1 h1 a2 h2 a3 h3 hc0 hc1 x0 x1 = total (rows i x0) (rows i x1) := by
  unfold out0_A_2
  rw [View.read_writes_eq_canon _ _ _ (cover0_A_2 c i a1 h1 a2 h2 a3 h3 hc0 hc1 x0 x1)]
  unfold kernelRun0_A
  dsimp only
  sl_unfold_words
  rw [View.canon_unit_zero zero_offsets]
  simp only [View.readAt_eq_ld, h1.read_unread, h2.read_unread]
  rfl

end Cert.KernelIdeal.Body

end
-- ==== Proof.LibStackRows.lean ====
/-
  Small readings at an index that a value proof over row blocks meets, for any element type unless said otherwise:
  a [a, 1, b] array recast as [a, b]; four blocks of 3, 1, 1 and 3 rows of one width laid one under the other, read at a
  row and a column; a sum over all indices of a [1, n, 1] or a [1, 1, n] array as the sum over its long axis; and, over
  the extended reals, a minimum taken along one axis as the fold of `min` over that axis's coordinates, and the product
  of an [8, N] by an [8, M] array contracted over their first axes as the sum of the eight products.
-/
import Idealize.ShloMosaic.Lib.ValueIdx
import Idealize.ShloMosaic.Lib.Pipeline.Value
import Idealize.ShloMosaic.PureOps.Ideal.Laws

noncomputable section

open scoped BigOperators

namespace Cert.StackRows

open Idealize.ShloMosaic Idealize.ShloMosaic.ValueIdx

variable {α : Type}

/-- A [a, 1, b] array recast as [a, b] reads (k, 0, n) at (k, n): the two have the same row-major position. -/
theorem shapeCast_a1b_ab_apply {a b : ℕ} (x : (⟨3, ![a, 1, b]⟩ : Shape).Idx → α)
    (h : (⟨3, ![a, 1, b]⟩ : Shape).ShapeCasts ⟨2, ![a, b]⟩) (k : Fin a) (n : Fin b) :
    shapeCast ⟨2, ![a, b]⟩ x h (ix2 k n) = x (ix3 k (0 : Fin 1) n) := by
  refine shapeCast_apply x h _ _ ?_
  rw [Shape.rowMajor_val_three, Shape.rowMajor_val_two]
  show (k.val * 1 + 0) * b + n.val = k.val * b + n.val
  simp

/-- A length-a vector recast as an a × 1 column reads n at (n, 0). -/
theorem shapeCast_a_a1_apply {a : ℕ} (x : (⟨1, ![a]⟩ : Shape).Idx → α)
    (h : (⟨1, ![a]⟩ : Shape).ShapeCasts ⟨2, ![a, 1]⟩) (n : Fin a) :
    shapeCast ⟨2, ![a, 1]⟩ x h (ix2 n (0 : Fin 1)) = x (ix1 n) := by
  refine shapeCast_apply x h _ _ ?_
  rw [Shape.rowMajor_val_one, Shape.rowMajor_val_two]
  show n.val = n.val * 1 + 0
  simp

/-- A length-a vector recast as a 1 × a row reads n at (0, n). -/
theorem shapeCast_a_1a_apply {a : ℕ} (x : (⟨1, ![a]⟩ : Shape).Idx → α)
    (h : (⟨1, ![a]⟩ : Shape).ShapeCasts ⟨2, ![1, a]⟩) (n : Fin a) :
    shapeCast ⟨2, ![1, a]⟩ x h (ix2 (0 : Fin 1) n) = x (ix1 n) := by
  refine shapeCast_apply x h _ _ ?_
  rw [Shape.rowMajor_val_one, Shape.rowMajor_val_two]
  show n.val = 0 * a + n.val
  simp

/-- An [a, b] array recast as [1, a, b] reads (p, q) at (0, p, q). -/
theorem shapeCast_ab_1ab_apply {a b : ℕ} (x : (⟨2, ![a, b]⟩ : Shape).Idx → α)
    (h : (⟨2, ![a, b]⟩ : Shape).ShapeCasts ⟨3, ![1, a, b]⟩) (p : Fin a) (q : Fin b) :
    shapeCast ⟨3, ![1, a, b]⟩ x h (ix3 (0 : Fin 1) p q) = x (ix2 p q) := by
  refine shapeCast_apply x h _ _ ?_
  rw [Shape.rowMajor_val_three, Shape.rowMajor_val_two]
  show p.val * b + q.val = (0 * a + p.val) * b + q.val
  simp

/-- A one-element vector recast as [1, 1, 1] reads its element. -/
theorem shapeCast_1_111_apply (x : (⟨1, ![1]⟩ : Shape).Idx → α)
    (h : (⟨1, ![1]⟩ : Shape).ShapeCasts ⟨3, ![1, 1, 1]⟩) :
    shapeCast ⟨3, ![1, 1, 1]⟩ x h (ix3 (0 : Fin 1) (0 : Fin 1) (0 : Fin 1)) = x (ix1 (0 : Fin 1)) := by
  refine shapeCast_apply x h _ _ ?_
  rw [Shape.rowMajor_val_three, Shape.rowMajor_val_one]
  rfl

/-! ## Four blocks of rows, one under the other -/

/-- Blocks of 3, 1, 1 and 3 rows of width `w` stacked along axis 0 into 8 rows: row `k`, column `n` is read from the
    block that holds row `k`, at the row's position inside that block. -/
theorem stack3113_apply {w : ℕ} (p0 : (⟨2, ![3, w]⟩ : Shape).Idx → α) (p1 p2 : (⟨2, ![1, w]⟩ : Shape).Idx → α)
    (p3 : (⟨2, ![3, w]⟩ : Shape).Idx → α)
    (h : Shape.Concatenates [(⟨2, ![3, w]⟩ : Shape), ⟨2, ![1, w]⟩, ⟨2, ![1, w]⟩, ⟨2, ![3, w]⟩] ⟨2, ![8, w]⟩ 0)
    (k : Fin 8) (n : Fin w) :
    concatenate (⟨2, ![8, w]⟩ : Shape) 0 [⟨⟨2, ![3, w]⟩, p0⟩, ⟨⟨2, ![1, w]⟩, p1⟩, ⟨⟨2, ![1, w]⟩, p2⟩, ⟨⟨2, ![3, w]⟩, p3⟩] h (ix2 k n)
      = (![p0 (ix2 0 n), p0 (ix2 1 n), p0 (ix2 2 n), p1 (ix2 0 n), p2 (ix2 0 n), p3 (ix2 0 n), p3 (ix2 1 n), p3 (ix2 2 n)] : Fin 8 → α) k := by
  have hi3 : ∀ (r : Fin 3) (k' : Fin 8) (b : Fin (⟨2, ![3, w]⟩ : Shape).rank), b.cast (rfl : (⟨2, ![3, w]⟩ : Shape).rank = (⟨2, ![8, w]⟩ : Shape).rank) ≠ 0 →
      ((ix2 r n : (⟨2, ![3, w]⟩ : Shape).Idx) b).val = ((ix2 k' n : (⟨2, ![8, w]⟩ : Shape).Idx) (b.cast rfl)).val := by
    intro r k' b hb
    match b with
    | ⟨0, _⟩ => exact absurd rfl hb
    | ⟨1, _⟩ => rfl
  have hi1 : ∀ (k' : Fin 8) (b : Fin (⟨2, ![1, w]⟩ : Shape).rank), b.cast (rfl : (⟨2, ![1, w]⟩ : Shape).rank = (⟨2, ![8, w]⟩ : Shape).rank) ≠ 0 →
      ((ix2 (0 : Fin 1) n : (⟨2, ![1, w]⟩ : Shape).Idx) b).val = ((ix2 k' n : (⟨2, ![8, w]⟩ : Shape).Idx) (b.cast rfl)).val := by
    intro k' b hb
    match b with
    | ⟨0, _⟩ => exact absurd rfl hb
    | ⟨1, _⟩ => rfl
  match k with
  | ⟨0, _⟩ => exact concatenate_apply_piece 0 [⟨⟨2, ![3, w]⟩, p0⟩, ⟨⟨2, ![1, w]⟩, p1⟩, ⟨⟨2, ![1, w]⟩, p2⟩, ⟨⟨2, ![3, w]⟩, p3⟩] h _ 0 (by simp) _ p0 rfl rfl 0 rfl (ix2 0 n) (hi3 0 _) rfl
  | ⟨1, _⟩ => exact concatenate_apply_piece 0 [⟨⟨2, ![3, w]⟩, p0⟩, ⟨⟨2, ![1, w]⟩, p1⟩, ⟨⟨2, ![1, w]⟩, p2⟩, ⟨⟨2, ![3, w]⟩, p3⟩] h _ 0 (by simp) _ p0 rfl rfl 0 rfl (ix2 1 n) (hi3 1 _) rfl
  | ⟨2, _⟩ => exact concatenate_apply_piece 0 [⟨⟨2, ![3, w]⟩, p0⟩, ⟨⟨2, ![1, w]⟩, p1⟩, ⟨⟨2, ![1, w]⟩, p2⟩, ⟨⟨2, ![3, w]⟩, p3⟩] h _ 0 (by simp) _ p0 rfl rfl 0 rfl (ix2 2 n) (hi3 2 _) rfl
  | ⟨3, _⟩ => exact concatenate_apply_piece 0 [⟨⟨2, ![3, w]⟩, p0⟩, ⟨⟨2, ![1, w]⟩, p1⟩, ⟨⟨2, ![1, w]⟩, p2⟩, ⟨⟨2, ![3, w]⟩, p3⟩] h _ 1 (by simp) _ p1 rfl rfl 3 rfl (ix2 0 n) (hi1 _) rfl
  | ⟨4, _⟩ => exact concatenate_apply_piece 0 [⟨⟨2, ![3, w]⟩, p0⟩, ⟨⟨2, ![1, w]⟩, p1⟩, ⟨⟨2, ![1, w]⟩, p2⟩, ⟨⟨2, ![3, w]⟩, p3⟩] h _ 2 (by simp) _ p2 rfl rfl 4 rfl (ix2 0 n) (hi1 _) rfl
  | ⟨5, _⟩ => exact concatenate_apply_piece 0 [⟨⟨2, ![3, w]⟩, p0⟩, ⟨⟨2, ![1, w]⟩, p1⟩, ⟨⟨2, ![1, w]⟩, p2⟩, ⟨⟨2, ![3, w]⟩, p3⟩] h _ 3 (by simp) _ p3 rfl rfl 5 rfl (ix2 0 n) (hi3 0 _) rfl
  | ⟨6, _⟩ => exact concatenate_apply_piece 0 [⟨⟨2, ![3, w]⟩, p0⟩, ⟨⟨2, ![1, w]⟩, p1⟩, ⟨⟨2, ![1, w]⟩, p2⟩, ⟨⟨2, ![3, w]⟩, p3⟩] h _ 3 (by simp) _ p3 rfl rfl 5 rfl (ix2 1 n) (hi3 1 _) rfl
  | ⟨7, _⟩ => exact concatenate_apply_piece 0 [⟨⟨2, ![3, w]⟩, p0⟩, ⟨⟨2, ![1, w]⟩, p1⟩, ⟨⟨2, ![1, w]⟩, p2⟩, ⟨⟨2, ![3, w]⟩, p3⟩] h _ 3 (by simp) _ p3 rfl rfl 5 rfl (ix2 2 n) (hi3 2 _) rfl

/-! ## Sums over every index of an array with one long axis -/

/-- The sum over every index of a [1, n, 1] array is the sum over its middle axis. -/
theorem sum_idx_1n1 {M : Type*} [AddCommMonoid M] {n : ℕ} (f : (⟨3, ![1, n, 1]⟩ : Shape).Idx → M) :
    ∑ i, f i = ∑ k : Fin n, f (ix3 (0 : Fin 1) k (0 : Fin 1)) := by
  let e : (⟨3, ![1, n, 1]⟩ : Shape).Idx ≃ Fin n :=
    { toFun := fun i => i 1
      invFun := fun k => ix3 (0 : Fin 1) k (0 : Fin 1)
      left_inv := fun i => funext fun a => Fin.ext (by
        match a with
        | ⟨0, _⟩ => have : (i 0).val < 1 := (i 0).isLt; show 0 = (i 0).val; omega
        | ⟨1, _⟩ => rfl
        | ⟨2, _⟩ => have : (i 2).val < 1 := (i 2).isLt; show 0 = (i 2).val; omega)
      right_inv := fun _ => rfl }
  rw [← Equiv.sum_comp e.symm f]
  rfl

/-- The sum over every index of a [1, 1, n] array is the sum over its last axis. -/
theorem sum_idx_11n {M : Type*} [AddCommMonoid M] {n : ℕ} (f : (⟨3, ![1, 1, n]⟩ : Shape).Idx → M) :
    ∑ i, f i = ∑ k : Fin n, f (ix3 (0 : Fin 1) (0 : Fin 1) k) := by
  let e : (⟨3, ![1, 1, n]⟩ : Shape).Idx ≃ Fin n :=
    { toFun := fun i => i 2
      invFun := fun k => ix3 (0 : Fin 1) (0 : Fin 1) k
      left_inv := fun i => funext fun a => Fin.ext (by
        match a with
        | ⟨0, _⟩ => have : (i 0).val < 1 := (i 0).isLt; show 0 = (i 0).val; omega
        | ⟨1, _⟩ => have : (i 1).val < 1 := (i 1).isLt; show 0 = (i 1).val; omega
        | ⟨2, _⟩ => rfl)
      right_inv := fun _ => rfl }
  rw [← Equiv.sum_comp e.symm f]
  rfl

/-! ## Reductions along one axis over the extended reals -/

/-- A minimum taken along ONE axis, over the extended reals: the fold of `min`, from the accumulator's value, over that
    axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The minimum of each row of an [a, b] array. -/
theorem rowMin_apply {a b : ℕ} (v : FVec Ideal ⟨2, ![a, b]⟩ .f32) (acc : BitVec (FTy.f32).bits)
    (h : (⟨2, ![a, b]⟩ : Shape).Reduces [1] ⟨1, ![a]⟩) (hφ : FKind.Formats .f32) (hacc : acc = FKind.minimumf.neutral .f32 hφ)
    (n : Fin a) :
    multiReduction .minimumf [1] ⟨1, ![a]⟩ v acc h hφ hacc (ix1 n)
      = (Finset.univ : Finset (Fin b)).fold min (Ideal.ofBits .f32 acc) (fun m => v (ix2 n m)) := by
  refine (multiReduction_minimumf_single v acc h hφ hacc (ix1 n)).trans ?_
  refine congrArg (Finset.fold min (Ideal.ofBits .f32 acc) · (Finset.univ : Finset (Fin b))) (funext fun m => ?_)
  exact congrArg v (funext fun c => Fin.ext (by match c with | ⟨0, _⟩ => rfl | ⟨1, _⟩ => rfl))

/-- The minimum of each column of an [a, b] array. -/
theorem colMin_apply {a b : ℕ} (v : FVec Ideal ⟨2, ![a, b]⟩ .f32) (acc : BitVec (FTy.f32).bits)
    (h : (⟨2, ![a, b]⟩ : Shape).Reduces [0] ⟨1, ![b]⟩) (hφ : FKind.Formats .f32) (hacc : acc = FKind.minimumf.neutral .f32 hφ)
    (m : Fin b) :
    multiReduction .minimumf [0] ⟨1, ![b]⟩ v acc h hφ hacc (ix1 m)
      = (Finset.univ : Finset (Fin a)).fold min (Ideal.ofBits .f32 acc) (fun n => v (ix2 n m)) := by
  refine (multiReduction_minimumf_single v acc h hφ hacc (ix1 m)).trans ?_
  refine congrArg (Finset.fold min (Ideal.ofBits .f32 acc) · (Finset.univ : Finset (Fin a))) (funext fun n => ?_)
  exact congrArg v (funext fun c => Fin.ext (by match c with | ⟨0, _⟩ => rfl | ⟨1, _⟩ => rfl))

/-- The sum of each column of an [a, b] array. -/
theorem colSum_apply {a b : ℕ} (v : FVec Ideal ⟨2, ![a, b]⟩ .f32) (acc : BitVec (FTy.f32).bits)
    (h : (⟨2, ![a, b]⟩ : Shape).Reduces [0] ⟨1, ![b]⟩) (hφ : FKind.Formats .f32) (hacc : acc = FKind.add.neutral .f32 hφ)
    (n : Fin b) :
    multiReduction .add [0] ⟨1, ![b]⟩ v acc h hφ hacc (ix1 n) = ∑ k : Fin a, v (ix2 k n) := by
  refine (Ideal.multiReduction_add_single v acc h hφ hacc (ix1 n)).trans ?_
  refine Finset.sum_congr rfl fun k _ => ?_
  exact congrArg v (funext fun c => Fin.ext (by match c with | ⟨0, _⟩ => rfl | ⟨1, _⟩ => rfl))

/-- The sum of all entries of a [1, n, 1] array, reduced over its last two axes. -/
theorem total_1n1_apply {n : ℕ} (v : FVec Ideal ⟨3, ![1, n, 1]⟩ .f32) (acc : BitVec (FTy.f32).bits)
    (h : (⟨3, ![1, n, 1]⟩ : Shape).Reduces [1, 2] ⟨1, ![1]⟩) (hφ : FKind.Formats .f32) (hacc : acc = FKind.add.neutral .f32 hφ) :
    multiReduction .add [1, 2] ⟨1, ![1]⟩ v acc h hφ hacc (ix1 (0 : Fin 1)) = ∑ k : Fin n, v (ix3 (0 : Fin 1) k (0 : Fin 1)) :=
  (Ideal.multiReduction_add_total v acc h (fun b => by match b with | ⟨0, _⟩ => rfl) hφ hacc _).trans (sum_idx_1n1 v)

/-- The sum of all entries of a [1, 1, n] array, reduced over its last two axes. -/
theorem total_11n_apply {n : ℕ} (v : FVec Ideal ⟨3, ![1, 1, n]⟩ .f32) (acc : BitVec (FTy.f32).bits)
    (h : (⟨3, ![1, 1, n]⟩ : Shape).Reduces [1, 2] ⟨1, ![1]⟩) (hφ : FKind.Formats .f32) (hacc : acc = FKind.add.neutral .f32 hφ) :
    multiReduction .add [1, 2] ⟨1, ![1]⟩ v acc h hφ hacc (ix1 (0 : Fin 1)) = ∑ k : Fin n, v (ix3 (0 : Fin 1) (0 : Fin 1) k) :=
  (Ideal.multiReduction_add_total v acc h (fun b => by match b with | ⟨0, _⟩ => rfl) hφ hacc _).trans (sum_idx_11n v)

end Cert.StackRows

end
-- ==== Proof.ChamferSpec.lean ====
/-
  The arithmetic of the chamfer loss over the extended reals, free of any program: the constants' values, the
  clamp at zero moved through a minimum, one pair's squared distance written two ways, and the mean taken batch by
  batch against the mean taken once.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic

/-! ## The constants -/

/-- The pattern of 1.0 denotes 1. -/
theorem ofBits_one : Ideal.ofBits .f32 0x3F800000#32 = 1 := by
  simp [Ideal.ofBits, Ideal.ieee, -EReal.coe_mul]; norm_num

/-- The pattern of -2.0 denotes the real -2. -/
theorem ofBits_neg_two : Ideal.ofBits .f32 0xC0000000#32 = ((-2 : ℝ) : EReal) := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-- The pattern of 16384.0 (the number of points in all batches, 8 · 2048) denotes the real 16384. -/
theorem ofBits_count : Ideal.ofBits .f32 0x46800000#32 = ((16384 : ℝ) : EReal) := by
  simp [Ideal.ofBits, Ideal.ieee, -EReal.coe_mul]; norm_num

/-- The pattern of +∞ denotes the top element. -/
theorem ofBits_top : Ideal.ofBits .f32 0x7F800000#32 = ⊤ := by
  simp [Ideal.ofBits, Ideal.ieee]

/-! ## The clamp at zero and a minimum -/

/-- `x ↦ max x 0` is monotone, so it passes through a minimum taken from +∞: clamping the minimum is taking the
    minimum of the clamped values. -/
theorem clamp_fold_min {ι : Type*} (s : Finset ι) (f : ι → EReal) :
    max (s.fold min ⊤ f) 0 = s.fold min ⊤ (fun i => max (f i) 0) := by
  have h := Finset.fold_hom (op := min) (op' := min) (s := s) (b := (⊤ : EReal)) (f := f) (m := fun x => max x 0)
    (fun x y => max_min_distrib_right x y 0)
  rw [← h]
  simp

/-! ## One pair of points -/

/-- The eight products the matrix unit sums for a pair of points `p`, `q` of ℝ³ — three of `-2 pₖ` with `qₖ`, then
    `|p|² · 1`, `1 · |q|²` and three of `0 · 0` — add up to `(|p|² + |q|²) - 2 ⟨p, q⟩`, the squared distance as the
    reference spells it. The factor `-2` moves across the sum only because every term is finite. -/
theorem pair_sum (p q : Fin 3 → ℝ) :
    (∑ k : Fin 8,
        (![((-2 : ℝ) : EReal) * (p 0 : EReal), ((-2 : ℝ) : EReal) * (p 1 : EReal), ((-2 : ℝ) : EReal) * (p 2 : EReal),
            ∑ j : Fin 3, (p j : EReal) * (p j : EReal), 1, 0, 0, 0] : Fin 8 → EReal) k
          * (![(q 0 : EReal), (q 1 : EReal), (q 2 : EReal), 1, ∑ j : Fin 3, (q j : EReal) * (q j : EReal), 0, 0, 0] : Fin 8 → EReal) k)
      = ((0 + ∑ j : Fin 3, (p j : EReal) * (p j : EReal)) + (0 + ∑ j : Fin 3, (q j : EReal) * (q j : EReal)))
          - ((2 : ℝ) : EReal) * ∑ j : Fin 3, (p j : EReal) * (q j : EReal) := by
  simp only [Fin.sum_univ_eight, Fin.sum_univ_three, Matrix.cons_val_zero, Matrix.cons_val_one, Matrix.cons_val]
  rw [show (1 : EReal) = ((1 : ℝ) : EReal) from rfl, show (0 : EReal) = ((0 : ℝ) : EReal) from rfl]
  simp only [← EReal.coe_mul, ← EReal.coe_add, ← EReal.coe_sub]
  exact congrArg _ (by ring)

/-- The same over the patterns the two programs spell: the kernel's sum of eight products of the augmented columns of `p`
    and `q` against the reference's `(|p|² + |q|²) - 2 ⟨p, q⟩`, for finite `p`, `q`. -/
def augL (p : Fin 3 → EReal) : Fin 8 → EReal :=
  ![Ideal.ofBits .f32 0xC0000000#32 * p 0, Ideal.ofBits .f32 0xC0000000#32 * p 1, Ideal.ofBits .f32 0xC0000000#32 * p 2,
    ∑ j : Fin 3, p j * p j, Ideal.ofBits .f32 0x3F800000#32,
    Ideal.ofBits .f32 0x00000000#32, Ideal.ofBits .f32 0x00000000#32, Ideal.ofBits .f32 0x00000000#32]

def augR (q : Fin 3 → EReal) : Fin 8 → EReal :=
  ![q 0, q 1, q 2, Ideal.ofBits .f32 0x3F800000#32, ∑ j : Fin 3, q j * q j,
    Ideal.ofBits .f32 0x00000000#32, Ideal.ofBits .f32 0x00000000#32, Ideal.ofBits .f32 0x00000000#32]

/-- One entry of the kernel's table. -/
def kerDist (p q : Fin 3 → EReal) : EReal := ∑ k : Fin 8, augL p k * augR q k

/-- One entry of the reference's table, before the clamp. -/
def refDist (p q : Fin 3 → EReal) : EReal :=
  ((Ideal.ofBits .f32 0x00000000#32 + ∑ j : Fin 3, p j * p j) + (Ideal.ofBits .f32 0x00000000#32 + ∑ j : Fin 3, q j * q j))
    - Ideal.ofBits .f32 0x40000000#32 * ∑ j : Fin 3, p j * q j

theorem dist_eq (p q : Fin 3 → ℝ) : kerDist (fun j => (p j : EReal)) (fun j => (q j : EReal)) = refDist (fun j => (p j : EReal)) (fun j => (q j : EReal)) := by
  unfold kerDist refDist augL augR
  rw [ofBits_neg_two, ofBits_one, ofBits_two, Ideal.ofBits_zero_f32]
  exact pair_sum p q

/-! ## The mean, batch by batch or at once -/

/-- Dividing by the number of points is multiplying by a nonnegative real, -/
theorem div_count (x : EReal) : Ideal.div x ((16384 : ℝ) : EReal) = x * ((1 / 16384 : ℝ) : EReal) :=
  Ideal.div_coe (by norm_num) x

/-- which distributes over every sum of extended reals, infinite terms included. -/
theorem add_mul_inv_count (x y : EReal) :
    (x + y) * ((1 / 16384 : ℝ) : EReal) = x * ((1 / 16384 : ℝ) : EReal) + y * ((1 / 16384 : ℝ) : EReal) :=
  EReal.right_distrib_of_nonneg_of_ne_top (by exact_mod_cast (by norm_num : (0 : ℝ) ≤ 1 / 16384)) (EReal.coe_ne_top _) x y

/-- Eight batches' row and column totals, each divided and added in turn to a zero, against the two grand totals
    divided once. -/
theorem mean_by_batches (R C : Fin 8 → EReal) (c : EReal) (hc : c = ((16384 : ℝ) : EReal)) :
    ((((((((((((((((0 + Ideal.div (R 0) c) + Ideal.div (C 0) c) + Ideal.div (R 1) c) + Ideal.div (C 1) c)
      + Ideal.div (R 2) c) + Ideal.div (C 2) c) + Ideal.div (R 3) c) + Ideal.div (C 3) c)
      + Ideal.div (R 4) c) + Ideal.div (C 4) c) + Ideal.div (R 5) c) + Ideal.div (C 5) c)
      + Ideal.div (R 6) c) + Ideal.div (C 6) c) + Ideal.div (R 7) c) + Ideal.div (C 7) c)
      = Ideal.div (0 + ∑ u, R u) c + Ideal.div (0 + ∑ u, C u) c := by
  subst hc
  simp only [div_count, Fin.sum_univ_eight, zero_add, add_mul_inv_count]
  ac_rfl

/-- A batch's row part: over the rows of its table, the clamped minimum of the row, summed. -/
def rowPart (D : Fin 2048 → Fin 2048 → EReal) : EReal :=
  ∑ n : Fin 2048, max ((Finset.univ : Finset (Fin 2048)).fold min (Ideal.ofBits .f32 0x7F800000#32) (fun m => D n m))
    (Ideal.ofBits .f32 0x00000000#32)

/-- A batch's column part: over the columns of its table, the clamped minimum of the column, summed. -/
def colPart (D : Fin 2048 → Fin 2048 → EReal) : EReal :=
  ∑ m : Fin 2048, max ((Finset.univ : Finset (Fin 2048)).fold min (Ideal.ofBits .f32 0x7F800000#32) (fun n => D n m))
    (Ideal.ofBits .f32 0x00000000#32)

/-- The loss as the kernel accumulates it over eight tables. -/
def kerLoss (D : Fin 8 → Fin 2048 → Fin 2048 → EReal) : EReal :=
  ((((((((((((((((Ideal.ofBits .f32 0x00000000#32
      + Ideal.div (rowPart (D 0)) (Ideal.ofBits .f32 0x46800000#32)) + Ideal.div (colPart (D 0)) (Ideal.ofBits .f32 0x46800000#32))
      + Ideal.div (rowPart (D 1)) (Ideal.ofBits .f32 0x46800000#32)) + Ideal.div (colPart (D 1)) (Ideal.ofBits .f32 0x46800000#32))
      + Ideal.div (rowPart (D 2)) (Ideal.ofBits .f32 0x46800000#32)) + Ideal.div (colPart (D 2)) (Ideal.ofBits .f32 0x46800000#32))
      + Ideal.div (rowPart (D 3)) (Ideal.ofBits .f32 0x46800000#32)) + Ideal.div (colPart (D 3)) (Ideal.ofBits .f32 0x46800000#32))
      + Ideal.div (rowPart (D 4)) (Ideal.ofBits .f32 0x46800000#32)) + Ideal.div (colPart (D 4)) (Ideal.ofBits .f32 0x46800000#32))
      + Ideal.div (rowPart (D 5)) (Ideal.ofBits .f32 0x46800000#32)) + Ideal.div (colPart (D 5)) (Ideal.ofBits .f32 0x46800000#32))
      + Ideal.div (rowPart (D 6)) (Ideal.ofBits .f32 0x46800000#32)) + Ideal.div (colPart (D 6)) (Ideal.ofBits .f32 0x46800000#32))
      + Ideal.div (rowPart (D 7)) (Ideal.ofBits .f32 0x46800000#32)) + Ideal.div (colPart (D 7)) (Ideal.ofBits .f32 0x46800000#32))

/-- The loss as the reference computes it over the same tables: clamp every entry, take the minima, sum over all batches
    and points, divide once, for the rows and for the columns. -/
def refLoss (D : Fin 8 → Fin 2048 → Fin 2048 → EReal) : EReal :=
  Ideal.div (Ideal.ofBits .f32 0x00000000#32 + ∑ u : Fin 8, ∑ n : Fin 2048,
      (Finset.univ : Finset (Fin 2048)).fold min (Ideal.ofBits .f32 0x7F800000#32)
        (fun m => max (D u n m) (Ideal.ofBits .f32 0x00000000#32))) (Ideal.ofBits .f32 0x46800000#32)
    + Ideal.div (Ideal.ofBits .f32 0x00000000#32 + ∑ u : Fin 8, ∑ m : Fin 2048,
      (Finset.univ : Finset (Fin 2048)).fold min (Ideal.ofBits .f32 0x7F800000#32)
        (fun n => max (D u n m) (Ideal.ofBits .f32 0x00000000#32))) (Ideal.ofBits .f32 0x46800000#32)

/-- The two are one value, whatever the tables hold: the clamp passes through the minima and the division through the
    sums. -/
theorem loss_eq (D : Fin 8 → Fin 2048 → Fin 2048 → EReal) : kerLoss D = refLoss D := by
  unfold kerLoss refLoss rowPart colPart
  simp only [ofBits_top, Ideal.ofBits_zero_f32, clamp_fold_min]
  exact mean_by_batches (fun u => ∑ n : Fin 2048, (Finset.univ : Finset (Fin 2048)).fold min ⊤ (fun m => max (D u n m) 0))
    (fun u => ∑ m : Fin 2048, (Finset.univ : Finset (Fin 2048)).fold min ⊤ (fun n => max (D u n m) 0)) _ ofBits_count

end Cert.Chamfer

end
-- ==== Proof.KernelTable.lean ====
/-
  One batch of the kernel over the extended reals: the loaded rows read at an index, an entry of the batch's table as
  the sum of eight products, and what a batch adds to the running value — the clamped row minima summed over the rows
  and divided by the number of points, then the same of the column minima.
-/
import proofs.«181836_g19164144075462_retrytranche2_391_24_alg».proof.Proof.KernelBody
import proofs.«181836_g19164144075462_retrytranche2_391_24_alg».proof.Proof.LibStackRows
import proofs.«181836_g19164144075462_retrytranche2_391_24_alg».proof.Proof.ChamferSpec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.StackRows

/-! ## The loaded rows -/

/-- At the grid's one point the rectangle of batch `u` starts at row `u` of the middle axis. -/
theorem rows_offsets : ∀ (t : Fin grid0.N) (u : Fin 8),
    k0_off1 (grid0.coords t) (BitVec.ofNat 32 u.val) = ![0, u.val, 0] := by decide +kernel

/-- Batch `u`'s rows read at (k, 0, n): the staged block at (k, u, n). -/
theorem rows_apply {F : FTy → Type} [FloatOps F] (t : Fin cfg0.N) (x : Vec F S3x8x2048 .f32) (u : Fin 8) (k : Fin 3) (n : Fin 2048) :
    rows (grid0.coords t) x u (ix3 k (0 : Fin 1) n) = x (ix3 k u n) := by
  unfold rows
  show x ((Rect.unit (s := S3x8x2048) (k0_off1 (grid0.coords t) (BitVec.ofNat 32 u.val)) S3x1x2048.size
    (k0_off1_inb (grid0.coords t) u)).toLoadRect.idx (ix3 k (0 : Fin 1) n)) = _
  refine congrArg x (funext fun a => Fin.ext ?_)
  rw [LoadRect.idx_apply]
  show k0_off1 (grid0.coords t) (BitVec.ofNat 32 u.val) a + 1 * ((ix3 k (0 : Fin 1) n : S3x1x2048.Idx) a).val = _
  rw [rows_offsets t u]
  match a with
  | ⟨0, _⟩ => show 0 + 1 * k.val = k.val; omega
  | ⟨1, _⟩ => show u.val + 1 * 0 = u.val; omega
  | ⟨2, _⟩ => show 0 + 1 * n.val = n.val; omega

/-! ## An entry of the table -/

/-- The product's dimension numbers: both operands contracted over their first axes. -/
abbrev D88 : DotDims S8x2048 S8x2048 S2048x2048 := dot_S8x2048_S8x2048_S2048x2048_0_0_1_1_n_n

theorem lhs_0 (i : S2048x2048.Idx) (q : D88.contr.Idx) : (D88.lhsIdx i q 0).val = (q ⟨0, by decide⟩).val :=
  DotDims.lhsIdx_val_of_single D88 rfl i q
theorem lhs_1 (i : S2048x2048.Idx) (q : D88.contr.Idx) : (D88.lhsIdx i q 1).val = (i 0).val := by
  unfold DotDims.lhsIdx
  rw [dif_neg (show ¬(1 : Fin S8x2048.rank) ∈ D88.lhsBatch by decide), dif_pos (show (1 : Fin S8x2048.rank) ∈ D88.lhsNonContracting by decide)]
  rfl
theorem rhs_0 (i : S2048x2048.Idx) (q : D88.contr.Idx) : (D88.rhsIdx i q 0).val = (q ⟨0, by decide⟩).val :=
  DotDims.rhsIdx_val_of_single D88 rfl i q
theorem rhs_1 (i : S2048x2048.Idx) (q : D88.contr.Idx) : (D88.rhsIdx i q 1).val = (i 1).val := by
  unfold DotDims.rhsIdx
  rw [dif_neg (show ¬(1 : Fin S8x2048.rank) ∈ D88.rhsBatch by decide), dif_pos (show (1 : Fin S8x2048.rank) ∈ D88.rhsNonContracting by decide)]
  rfl

/-- The matrix unit's product of two [8, 2048] arrays contracted over their first axes, into zero: entry (n, m) is the
    sum over the eight rows of the left array's column n times the right array's column m. -/
theorem product_apply (L R : FVec Ideal S8x2048 .f32) (n m : Fin 2048) :
    matmul D88 none L R (constant S2048x2048 .f32 0x00000000#32) (ix2 n m) = ∑ k : Fin 8, L (ix2 k n) * R (ix2 k m) := by
  simp only [matmul]
  rw [Ideal.matmul_constant_zero_apply, ← Equiv.sum_comp (contrEquiv1 D88 8 rfl rfl).symm]
  refine Finset.sum_congr rfl fun k _ => ?_
  have hk := contrEquiv1_symm_val D88 8 rfl rfl k
  have el : D88.lhsIdx (ix2 n m) ((contrEquiv1 D88 8 rfl rfl).symm k) = ix2 k n := funext fun a => Fin.ext (by
    match a with
    | ⟨0, _⟩ => exact (lhs_0 _ _).trans hk
    | ⟨1, _⟩ => exact lhs_1 _ _)
  have er : D88.rhsIdx (ix2 n m) ((contrEquiv1 D88 8 rfl rfl).symm k) = ix2 k m := funext fun a => Fin.ext (by
    match a with
    | ⟨0, _⟩ => exact (rhs_0 _ _).trans hk
    | ⟨1, _⟩ => exact rhs_1 _ _)
  rw [el, er]

/-- The sum of the squares of a column of three coordinate rows, as the body forms it: a [3, 2048] array squared,
    summed along axis 0, recast as one row. -/
theorem squares_apply (v : FVec Ideal S3x2048 .f32) (n : Fin 2048) :
    shapeCast S1x2048 (multiReduction .add [0] S2048 (mulf v v) 0x00000000#32 reduces_S3x2048_S2048 (.inl rfl) rfl)
        shapeCasts_S2048_S1x2048 (ix2 (0 : Fin 1) n)
      = ∑ j : Fin 3, v (ix2 j n) * v (ix2 j n) :=
  (shapeCast_a_1a_apply _ shapeCasts_S2048_S1x2048 n).trans
    (colSum_apply (mulf v v) 0x00000000#32 reduces_S3x2048_S2048 (.inl rfl) rfl n)

/-- Entry (n, m) of a batch's table: the eight products of the two points' augmented columns, summed. -/
theorem table_apply (a b : Vec Ideal S3x1x2048 .f32) (n m : Fin 2048) :
    table a b (ix2 n m) = Chamfer.kerDist (fun j => a (ix3 j (0 : Fin 1) n)) (fun j => b (ix3 j (0 : Fin 1) m)) := by
  unfold table k0_pay3 Chamfer.kerDist
  refine (product_apply _ _ n m).trans (Finset.sum_congr rfl fun k _ => ?_)
  refine congrArg₂ (· * ·) ((stack3113_apply _ _ _ _ _ k n).trans ?_) ((stack3113_apply _ _ _ _ _ k m).trans ?_)
  · refine congrFun ?_ k
    unfold Chamfer.augL
    have hs := fun (j : Fin 3) (n' : Fin 2048) => shapeCast_a1b_ab_apply a shapeCasts_S3x1x2048_S3x2048 j n'
    have hq := squares_apply (shapeCast S3x2048 a shapeCasts_S3x1x2048_S3x2048) n
    simp only [hs] at hq
    exact congrArg₂ Matrix.vecCons ((mulf_apply _ _ _).trans (congrArg₂ (· * ·) rfl (hs 0 n)))
      (congrArg₂ Matrix.vecCons ((mulf_apply _ _ _).trans (congrArg₂ (· * ·) rfl (hs 1 n)))
        (congrArg₂ Matrix.vecCons ((mulf_apply _ _ _).trans (congrArg₂ (· * ·) rfl (hs 2 n))) (congrArg₂ Matrix.vecCons hq rfl)))
  · refine congrFun ?_ k
    unfold Chamfer.augR
    have hs := fun (j : Fin 3) (n' : Fin 2048) => shapeCast_a1b_ab_apply b shapeCasts_S3x1x2048_S3x2048 j n'
    have hq := squares_apply (shapeCast S3x2048 b shapeCasts_S3x1x2048_S3x2048) m
    simp only [hs] at hq
    exact congrArg₂ Matrix.vecCons (hs 0 m) (congrArg₂ Matrix.vecCons (hs 1 m)
      (congrArg₂ Matrix.vecCons (hs 2 m) (congrArg₂ Matrix.vecCons rfl (congrArg₂ Matrix.vecCons hq rfl))))

/-! ## What a batch adds -/

theorem extractAt_000 {α : Type} (v : S1x1x1.Idx → α) (h : ∀ a, (![0, 0, 0] : Fin 3 → Nat) a < S1x1x1.size a) :
    extractAt ![0, 0, 0] v h = v (ix3 (0 : Fin 1) (0 : Fin 1) (0 : Fin 1)) :=
  congrArg v (funext fun a => Fin.ext (by match a with | ⟨0, _⟩ => rfl | ⟨1, _⟩ => rfl | ⟨2, _⟩ => rfl))

/-- The row total as the body forms it: the row minima from +∞, as a column, clamped at zero, recast with a leading unit
    axis, summed over everything, the one element taken out. -/
def rowTotal (d : FVec Ideal S2048x2048 .f32) : Ideal .f32 :=
  extractAt ![0, 0, 0] (shapeCast S1x1x1 (multiReduction .add [1, 2] S1 (shapeCast S1x2048x1 (maximumf
    (shapeCast S2048x1 (multiReduction .minimumf [1] S2048 d 0x7F800000#32 reduces_S2048x2048_S2048 (.inl rfl) rfl) shapeCasts_S2048_S2048x1)
    (broadcast S2048x1 (Scalar.ofBits .f32 0x00000000#32))) shapeCasts_S2048x1_S1x2048x1) 0x00000000#32 reduces_S1x2048x1_S1 (.inl rfl) rfl)
    shapeCasts_S1_S1x1x1) inpos_S1x1x1_p0_0_0

/-- The column total as the body forms it. -/
def colTotal (d : FVec Ideal S2048x2048 .f32) : Ideal .f32 :=
  extractAt ![0, 0, 0] (shapeCast S1x1x1 (multiReduction .add [1, 2] S1 (shapeCast S1x1x2048 (maximumf
    (shapeCast S1x2048 (multiReduction .minimumf [0] S2048 d 0x7F800000#32 reduces_S2048x2048_S2048_2 (.inl rfl) rfl) shapeCasts_S2048_S1x2048)
    (broadcast S1x2048 (Scalar.ofBits .f32 0x00000000#32))) shapeCasts_S1x2048_S1x1x2048) 0x00000000#32 reduces_S1x1x2048_S1 (.inl rfl) rfl)
    shapeCasts_S1_S1x1x1) inpos_S1x1x1_p0_0_0

theorem rowTotal_eq (d : FVec Ideal S2048x2048 .f32) : rowTotal d = Chamfer.rowPart (fun n m => d (ix2 n m)) := by
  unfold rowTotal Chamfer.rowPart
  refine (extractAt_000 _ _).trans ((shapeCast_1_111_apply _ _).trans ((total_1n1_apply _ _ _ _ _).trans
    (Finset.sum_congr rfl fun n _ => ?_)))
  refine (shapeCast_ab_1ab_apply _ _ n (0 : Fin 1)).trans ?_
  refine (maximumf_apply _ _ _).trans (congrArg₂ max ?_ rfl)
  exact (shapeCast_a_a1_apply _ shapeCasts_S2048_S2048x1 n).trans (rowMin_apply d _ _ _ _ n)

theorem colTotal_eq (d : FVec Ideal S2048x2048 .f32) : colTotal d = Chamfer.colPart (fun n m => d (ix2 n m)) := by
  unfold colTotal Chamfer.colPart
  refine (extractAt_000 _ _).trans ((shapeCast_1_111_apply _ _).trans ((total_11n_apply _ _ _ _ _).trans
    (Finset.sum_congr rfl fun m _ => ?_)))
  refine (shapeCast_ab_1ab_apply _ _ (0 : Fin 1) m).trans ?_
  refine (maximumf_apply _ _ _).trans (congrArg₂ max ?_ rfl)
  exact (shapeCast_a_1a_apply _ shapeCasts_S2048_S1x2048 m).trans (colMin_apply d _ _ _ _ m)

/-- A batch adds to the running value its row part divided by the number of points, then its column part divided by
    the number of points. -/
theorem addBatch_apply (s : FVec Ideal S1x1 .f32) (d : FVec Ideal S2048x2048 .f32) (j : S1x1.Idx) :
    addBatch s d j = (s j + Ideal.div (Chamfer.rowPart (fun n m => d (ix2 n m))) (Ideal.ofBits .f32 0x46800000#32))
      + Ideal.div (Chamfer.colPart (fun n m => d (ix2 n m))) (Ideal.ofBits .f32 0x46800000#32) := by
  rw [← rowTotal_eq, ← colTotal_eq]
  unfold addBatch k0_pay6 rowTotal colTotal
  simp only [addf_apply, divf_apply]
  rw [broadcast_apply, broadcast_apply, broadcast_apply]
  rfl

/-- The running value starts at the pattern of zero. -/
theorem start_apply (j : S1x1.Idx) : start (F := Ideal) j = Ideal.ofBits .f32 0x00000000#32 := by
  unfold start k0_pay2
  rfl

end Cert.KernelIdeal.Body

end
-- ==== Proof.KernelValue.lean ====
/-
  The kernel's program run to its result over the extended reals: the one grid point's output block holds the loss
  accumulated over the eight batches of the two argument arrays (each staged as three coordinate planes, the
  transposition the host lines before the call make), the block is the whole 1×1 result array, and the host line
  after the call recasts that array as the scalar result.
-/
import proofs.«181836_g19164144075462_retrytranche2_391_24_alg».proof.Proof.KernelTable
import Idealize.ShloMosaic.Lib.Pipeline.Value
import Idealize.ShloMosaic.Lib.StableHlo.Run
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Body

variable (m : (ℓ : Loc nD τ sig) → Buf (Elt Ideal) ℓ) (ρ : Dev nD → PrngReg)

/-- The kernel's eight tables, from the two argument arrays: batch `u`, point `n` of the first cloud against point `m`
    of the second. -/
def kerTable (x0 x1 : FVec Ideal S8x2048x3 .f32) : Fin 8 → Fin 2048 → Fin 2048 → EReal :=
  fun u n m => Chamfer.kerDist (fun j => x0 (ix3 u n j)) (fun j => x1 (ix3 u m j))

/-- The loss the kernel computes. -/
def loss (x0 x1 : FVec Ideal S8x2048x3 .f32) : EReal := Chamfer.kerLoss (kerTable x0 x1)

/-! ## The body's value, over any staged blocks that hold the coordinate planes -/

theorem table_rows (t : Fin cfg0.N) (X0 X1 : Vec Ideal S3x8x2048 .f32) (x0 x1 : FVec Ideal S8x2048x3 .f32)
    (h0 : ∀ (k : Fin 3) (u : Fin 8) (n : Fin 2048), X0 (ix3 k u n) = x0 (ix3 u n k))
    (h1 : ∀ (k : Fin 3) (u : Fin 8) (n : Fin 2048), X1 (ix3 k u n) = x1 (ix3 u n k)) (u : Fin 8) :
    (fun n m => table (rows (grid0.coords t) X0 u) (rows (grid0.coords t) X1 u) (ix2 n m)) = kerTable x0 x1 u := by
  funext n m
  rw [table_apply]
  unfold kerTable
  simp only [rows_apply, h0, h1]

theorem total_value (t : Fin cfg0.N) (X0 X1 : Vec Ideal S3x8x2048 .f32) (x0 x1 : FVec Ideal S8x2048x3 .f32)
    (h0 : ∀ (k : Fin 3) (u : Fin 8) (n : Fin 2048), X0 (ix3 k u n) = x0 (ix3 u n k))
    (h1 : ∀ (k : Fin 3) (u : Fin 8) (n : Fin 2048), X1 (ix3 k u n) = x1 (ix3 u n k)) (j : S1x1.Idx) :
    total (rows (grid0.coords t) X0) (rows (grid0.coords t) X1) j = loss x0 x1 := by
  unfold total loss Chamfer.kerLoss
  simp only [addBatch_apply, start_apply, table_rows t X0 X1 x0 x1 h0 h1]

/-! ## The staged blocks -/

/-- The host's transposition to coordinate planes: plane `k`, batch `u`, point `n` is the argument at (u, n, k). -/
theorem planes_apply (x : S8x2048x3.Idx → EReal) (k : Fin 3) (u : Fin 8) (n : Fin 2048) :
    transpose S3x8x2048 [2, 0, 1] x transposes_S8x2048x3_S3x8x2048_2_0_1 (ix3 k u n) = x (ix3 u n k) :=
  transpose_apply [2, 0, 1] x transposes_S8x2048x3_S3x8x2048_2_0_1 (ix3 k u n) (ix3 u n k)
    (fun b => match b with | ⟨0, _⟩ => rfl | ⟨1, _⟩ => rfl | ⟨2, _⟩ => rfl)

/-- What the region finds in the first staged array: the first argument's planes. -/
theorem V_v0 (c : Dev nD) : (V m c main_v0 : S3x8x2048.Idx → EReal)
    = transpose S3x8x2048 [2, 0, 1] (m ((c : Thread nD τ).loc main_arg0)) transposes_S8x2048x3_S3x8x2048_2_0_1 := by
  show StableHlo.after hostOps0 (fun b => m (c, b)) (Proc.devRef .tc main_v0) = _
  after_results

/-- And in the second: the second argument's planes. -/
theorem V_v1 (c : Dev nD) : (V m c main_v1 : S3x8x2048.Idx → EReal)
    = transpose S3x8x2048 [2, 0, 1] (m ((c : Thread nD τ).loc main_arg1)) transposes_S8x2048x3_S3x8x2048_2_0_1 := by
  show StableHlo.after hostOps0 (fun b => m (c, b)) (Proc.devRef .tc main_v1) = _
  after_results

theorem index_zero : ∀ (t : Fin grid0.N),
    (∀ a : Fin 3, win0_0.index t a = 0) ∧ (∀ a : Fin 3, win0_1.index t a = 0) ∧ (∀ a : Fin 2, win0_2.index t a = 0) := by
  decide +kernel

/-- The first window's block at the one grid point is the whole staged array. -/
theorem iblk0_apply (c : Dev nD) (t : Fin cfg0.N) (k : Fin 3) (u : Fin 8) (n : Fin 2048) :
    iblk m c 0 t (ix3 k u n) = m ((c : Thread nD τ).loc main_arg0) (ix3 u n k) := by
  unfold iblk
  rw [View.read_apply]
  show V m c main_v0 (((cfg0.win 0).blk t).view.emb (ix3 k u n)) = _
  have e : ((cfg0.win 0).blk t).view.emb (ix3 k u n) = ix3 k u n := funext fun a => Fin.ext (by
    match a with
    | ⟨0, _⟩ => show win0_0.index t (0 : Fin 3) * 3 + 1 * k.val = k.val; rw [(index_zero t).1]; omega
    | ⟨1, _⟩ => show win0_0.index t (1 : Fin 3) * 8 + 1 * u.val = u.val; rw [(index_zero t).1]; omega
    | ⟨2, _⟩ => show win0_0.index t (2 : Fin 3) * 2048 + 1 * n.val = n.val; rw [(index_zero t).1]; omega)
  rw [e, V_v0, planes_apply]

theorem iblk1_apply (c : Dev nD) (t : Fin cfg0.N) (k : Fin 3) (u : Fin 8) (n : Fin 2048) :
    iblk m c 1 t (ix3 k u n) = m ((c : Thread nD τ).loc main_arg1) (ix3 u n k) := by
  unfold iblk
  rw [View.read_apply]
  show V m c main_v1 (((cfg0.win 1).blk t).view.emb (ix3 k u n)) = _
  have e : ((cfg0.win 1).blk t).view.emb (ix3 k u n) = ix3 k u n := funext fun a => Fin.ext (by
    match a with
    | ⟨0, _⟩ => show win0_1.index t (0 : Fin 3) * 3 + 1 * k.val = k.val; rw [(index_zero t).2.1]; omega
    | ⟨1, _⟩ => show win0_1.index t (1 : Fin 3) * 8 + 1 * u.val = u.val; rw [(index_zero t).2.1]; omega
    | ⟨2, _⟩ => show win0_1.index t (2 : Fin 3) * 2048 + 1 * n.val = n.val; rw [(index_zero t).2.1]; omega)
  rw [e, V_v1, planes_apply]

/-! ## The result array -/

/-- The 1×1 result array's contents after the run. -/
def G (c : Dev nD) : Buf (Elt Ideal) ((c : Thread nD τ).loc main_v2) :=
  fun _ => loss (m ((c : Thread nD τ).loc main_arg0)) (m ((c : Thread nD τ).loc main_arg1))

/-- What the grid point writes back is the loss, at the block's one index. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold outsAt0
  rw [out_eq]
  funext j
  exact total_value t (iblk m c 0 t) (iblk m c 1 t) (m ((c : Thread nD τ).loc main_arg0)) (m ((c : Thread nD τ).loc main_arg1))
    (iblk0_apply m c t) (iblk1_apply m c t) j

theorem block2_facts : ∀ (t : Fin grid0.N) (a : Fin 2),
    win0_2.index t a * win0_2.size a = 0 ∧ win0_2.xsize (grid0.coords t) a = 1 := by decide +kernel

/-- The one block is the whole array, so after the run the array holds the loss. -/
theorem final (c : Dev nD) : (dats m 0 c).arrAt 2 cfg0.N = G m c :=
  (dats m 0 c).arrAt_eq_of_cover 2 (G m c) (fun t _ => flushed_eq m c t) fun i =>
    ⟨t0_0, flush0_2 t0_0, by
      show i ∈ ((View.whole main_v2).slice (win0_2.rect t0_0)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [(block2_facts t0_0 0).1, (block2_facts t0_0 0).2]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [(block2_facts t0_0 1).1, (block2_facts t0_0 1).2]; omega⟩

/-! ## The scalar result -/

/-- The scalar result's contents after the run. -/
def result (c : Dev nD) : Buf (Elt Ideal) ((c : Thread nD τ).loc main_v3) :=
  fun _ => loss (m ((c : Thread nD τ).loc main_arg0)) (m ((c : Thread nD τ).loc main_arg1))

/-- A recast of an array that holds one value everywhere holds that value everywhere. -/
theorem shapeCast_const {s t : Shape} {α : Type} (v : α) (h : s.ShapeCasts t) (i : t.Idx) :
    shapeCast t (fun _ : s.Idx => v) h i = v := rfl

/-- The host line after the call recasts the 1×1 array as the scalar: the same one value. -/
theorem tail_eq (c : Dev nD) : Pipeline.afterTail₀ cfgs (dats m) 0 (V0 m) [hostOps1] c main_v3 = result m c := by
  unfold Pipeline.afterTail₀
  show StableHlo.after hostOps1 _ (Proc.devRef .tc main_v3) = _
  after_results
  funext i
  rw [show Pipeline.withArrays (cfgs 0).spec c (V0 m c) (fun w => (dats m 0 c).arrAt w (cfgs 0).N) (Proc.tc.devRef main_v2) = G m c from
    (Pipeline.withArrays_arr spec0 launch0.win.arr_inj c _ _ 2).trans (final m c)]
  exact shapeCast_const _ shapeCasts_S1x1_S_ i

/-- The run, read: every weakly fair execution ends with the scalar result at the loss and the arguments as launched. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference read at the extended reals: its table of clamped squared distances entry by entry, the minima along
  either point axis, and the two means — the loss the specification calls `refLoss` of the table of
  `(|p|² + |q|²) - 2 ⟨p, q⟩`.
-/
import proofs.«181836_g19164144075462_retrytranche2_391_24_alg».proof.Proof.Gen.ReferenceIdeal.Read
import proofs.«181836_g19164144075462_retrytranche2_391_24_alg».proof.Proof.ChamferSpec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The reference's table before the clamp: batch `u`, point `n` of the first cloud, point `m` of the second. -/
def refTable (x0 x1 : FVec Ideal S8x2048x3 .f32) : Fin 8 → Fin 2048 → Fin 2048 → EReal :=
  fun u n m => Chamfer.refDist (fun j => x0 (ix3 u n j)) (fun j => x1 (ix3 u m j))

theorem e_sq0 (u : Fin 8) (n m : Fin 2048) (k : Fin 3) :
    idx_main_v1 (idx_main_v2 (idx_main_v8 (ix3 u n m))) k = ix3 u n k :=
  funext fun a => Fin.ext (by match a with | ⟨0, _⟩ => rfl | ⟨1, _⟩ => rfl | ⟨2, _⟩ => rfl)
theorem e_sq1 (u : Fin 8) (n m : Fin 2048) (k : Fin 3) :
    idx_main_v4 (idx_main_v5 (idx_main_v7 (idx_main_v9 (ix3 u n m)))) k = ix3 u m k :=
  funext fun a => Fin.ext (by match a with | ⟨0, _⟩ => rfl | ⟨1, _⟩ => rfl | ⟨2, _⟩ => rfl)
theorem e_l (u : Fin 8) (n m : Fin 2048) (k : Fin 3) : lidx_main_v6 (ix3 u n m) k = ix3 u n k :=
  funext fun a => Fin.ext (by match a with | ⟨0, _⟩ => rfl | ⟨1, _⟩ => rfl | ⟨2, _⟩ => rfl)
theorem e_r (u : Fin 8) (n m : Fin 2048) (k : Fin 3) : ridx_main_v6 (ix3 u n m) k = ix3 u m k :=
  funext fun a => Fin.ext (by match a with | ⟨0, _⟩ => rfl | ⟨1, _⟩ => rfl | ⟨2, _⟩ => rfl)

/-- An entry of the difference `(|a|² + |b|²) - 2 ⟨a, b⟩` the reference forms. -/
theorem v13_apply (x0 x1 : FVec Ideal S8x2048x3 .f32) (u : Fin 8) (n m : Fin 2048) :
    val_main_v13 (F := Ideal) x0 x1 (ix3 u n m) = refTable x0 x1 u n m := by
  unfold refTable Chamfer.refDist
  rw [val_main_v13_apply, val_main_v10_apply, val_main_v12_apply, val_main_v8_apply, val_main_v9_apply, val_main_v2_apply,
    val_main_v7_apply, val_main_v5_apply, val_main_v1_apply, val_main_v4_apply, val_main_v11_apply, val_main_v6_apply]
  simp only [val_main_v0_apply, val_main_v3_apply, val_main_cst_apply, val_main_cst_0_apply, val_main_cst_1_apply,
    e_sq0, e_sq1, e_l, e_r, Ideal.mulf_def, Ideal.addf_def, Ideal.subf_def, Ideal.ofBits_def]

/-- The clamped entry. -/
theorem v15_apply (x0 x1 : FVec Ideal S8x2048x3 .f32) (u : Fin 8) (n m : Fin 2048) :
    val_main_v15 (F := Ideal) x0 x1 (ix3 u n m) = max (refTable x0 x1 u n m) (Ideal.ofBits .f32 0x00000000#32) := by
  rw [val_main_v15_apply, val_main_v14_apply, val_main_cst_2_apply, v13_apply]
  rfl

theorem red2 : S8x2048x2048.Reduces [2] S8x2048 := by decide
theorem red1 : S8x2048x2048.Reduces [1] S8x2048 := by decide

/-- The minimum over the second cloud's points, from +∞. -/
theorem v16_apply (x0 x1 : FVec Ideal S8x2048x3 .f32) (u : Fin 8) (n : Fin 2048) :
    val_main_v16 (F := Ideal) x0 x1 (ix2 u n)
      = (Finset.univ : Finset (Fin 2048)).fold min (Ideal.ofBits .f32 0x7F800000#32)
          (fun m => max (refTable x0 x1 u n m) (Ideal.ofBits .f32 0x00000000#32)) := by
  unfold val_main_v16
  refine (Host.reduce_eq_fold_single FloatOps.minimumf _ _ reducesTo_S8x2048x2048_S8x2048_d2 red2 h_S_ (ix2 u n)).trans ?_
  refine congrArg (Finset.fold min (Ideal.ofBits .f32 0x7F800000#32) · (Finset.univ : Finset (Fin 2048))) (funext fun m => ?_)
  refine Eq.trans (congrArg (val_main_v15 (F := Ideal) x0 x1) ?_) (v15_apply x0 x1 u n m)
  exact funext fun a => Fin.ext (by match a with | ⟨0, _⟩ => rfl | ⟨1, _⟩ => rfl | ⟨2, _⟩ => rfl)

/-- The minimum over the first cloud's points, from +∞. -/
theorem v17_apply (x0 x1 : FVec Ideal S8x2048x3 .f32) (u : Fin 8) (m : Fin 2048) :
    val_main_v17 (F := Ideal) x0 x1 (ix2 u m)
      = (Finset.univ : Finset (Fin 2048)).fold min (Ideal.ofBits .f32 0x7F800000#32)
          (fun n => max (refTable x0 x1 u n m) (Ideal.ofBits .f32 0x00000000#32)) := by
  unfold val_main_v17
  refine (Host.reduce_eq_fold_single FloatOps.minimumf _ _ reducesTo_S8x2048x2048_S8x2048_d1 red1 h_S_ (ix2 u m)).trans ?_
  refine congrArg (Finset.fold min (Ideal.ofBits .f32 0x7F800000#32) · (Finset.univ : Finset (Fin 2048))) (funext fun n => ?_)
  refine Eq.trans (congrArg (val_main_v15 (F := Ideal) x0 x1) ?_) (v15_apply x0 x1 u n m)
  exact funext fun a => Fin.ext (by match a with | ⟨0, _⟩ => rfl | ⟨1, _⟩ => rfl | ⟨2, _⟩ => rfl)

/-- The reference's result, at its one index, is the specification's `refLoss` of its table. -/
theorem result_apply (x0 x1 : FVec Ideal S8x2048x3 .f32) (i : S_.Idx) :
    val_main_v22 (F := Ideal) x0 x1 i = Chamfer.refLoss (refTable x0 x1) := by
  unfold Chamfer.refLoss
  rw [val_main_v22_apply, val_main_v19_apply, val_main_v21_apply, val_main_v18_apply, val_main_v20_apply, sum_idx2, sum_idx2]
  simp only [v16_apply, v17_apply, val_main_cst_5_apply, val_main_cst_6_apply, val_main_cst_7_apply, val_main_cst_8_apply,
    Ideal.addf_def, Ideal.hostDivf_def, Ideal.ofBits_def]

end Cert.ReferenceIdeal.RefValue

end
-- ==== Proof.Bridge.lean ====
/-
  The bridge between the two tables: under the precondition every coordinate of either cloud is a real number, and for
  real coordinates the kernel's sum of eight products and the reference's `(|p|² + |q|²) - 2 ⟨p, q⟩` are one value, so
  the reference's loss of its table is the kernel's loss of its own.
-/
import proofs.«181836_g19164144075462_retrytranche2_391_24_alg».proof.Proof.KernelValue
import proofs.«181836_g19164144075462_retrytranche2_391_24_alg».proof.Proof.RefValue
import proofs.«181836_g19164144075462_retrytranche2_391_24_alg».proof.Pre_finite_inputs
import Idealize.ShloMosaic.Lib.ReduceAll
import Idealize.ShloMosaic.Lib.Affine

noncomputable section

open Idealize.ShloMosaic Idealize.ShloMosaic.ValueIdx

namespace Cert.Bridge

/-- An extended real whose absolute value `max x (-x)` is below +∞ is a real number. -/
theorem real_of_abs_lt (x : EReal)
    (h : Ideal.cmp .olt (max x (-x)) (Ideal.ofBits .f32 0x7F800000#32) = 1#1) : ∃ r : ℝ, x = (r : EReal) := by
  rw [Chamfer.ofBits_top] at h
  have h' : max x (-x) < ⊤ := by
    by_contra hn
    have h0 : Ideal.cmp .olt (max x (-x)) ⊤ = 0#1 := by
      simp only [Ideal.cmp, hn, decide_false]
      rfl
    rw [h0] at h
    exact absurd h (by decide)
  induction x using EReal.rec with
  | bot => simp at h'
  | top => simp at h'
  | coe r => exact ⟨r, rfl⟩

section
variable [Cert.Pre_finite_inputs.Facts]
open Cert.Pre_finite_inputs

instance : Subsingleton S_.Idx := ⟨fun a b => funext fun d => d.elim0⟩

/-- The precondition, all ones, says every entry of both arrays is finite. -/
theorem finite_of_pre (x0 x1 : FVec Ideal S8x2048x3 .f32) (h : fn (F := Ideal) x0 x1 = fun _ => 1#1) :
    (∀ i, ∃ r : ℝ, x0 i = (r : EReal)) ∧ (∀ i, ∃ r : ℝ, x1 i = (r : EReal)) := by
  have h0 := congrFun h ix0
  dsimp only [fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

end

/-- For arrays of real entries the two tables agree entry by entry. -/
theorem tables_eq (x0 x1 : (⟨3, ![8, 2048, 3]⟩ : Shape).Idx → EReal)
    (f0 : ∀ i, ∃ r : ℝ, x0 i = (r : EReal)) (f1 : ∀ i, ∃ r : ℝ, x1 i = (r : EReal)) :
    Cert.ReferenceIdeal.RefValue.refTable x0 x1 = Cert.KernelIdeal.Result.kerTable x0 x1 := by
  choose r0 hr0 using f0
  choose r1 hr1 using f1
  funext u n m
  unfold Cert.ReferenceIdeal.RefValue.refTable Cert.KernelIdeal.Result.kerTable
  simp only [hr0, hr1]
  exact (Chamfer.dist_eq _ _).symm

/-- So the reference's loss is the kernel's. -/
theorem losses_eq (x0 x1 : (⟨3, ![8, 2048, 3]⟩ : Shape).Idx → EReal)
    (f0 : ∀ i, ∃ r : ℝ, x0 i = (r : EReal)) (f1 : ∀ i, ∃ r : ℝ, x1 i = (r : EReal)) :
    Chamfer.refLoss (Cert.ReferenceIdeal.RefValue.refTable x0 x1) = Cert.KernelIdeal.Result.loss x0 x1 := by
  unfold Cert.KernelIdeal.Result.loss
  rw [tables_eq x0 x1 f0 f1, Chamfer.loss_eq]

end Cert.Bridge

end
-- ==== Proof.lean ====
/-
  The chamfer loss of two clouds of 2048 points of ℝ³ in eight batches: a kernel that, batch by batch, forms the table
  of pairwise values on the matrix unit as one product of augmented columns ([-2a, |a|², 1, 0, 0, 0] against
  [b, 1, |b|², 0, 0, 0]), takes the minima along rows and columns, clamps them at zero, and adds their sums divided by the
  number of points to a running value — against the reference that forms (|a|² + |b|²) - 2⟨a, b⟩ for all batches at
  once, clamps every entry, takes the minima, and divides each grand total once.

  Over the extended reals the two results are one value when every coordinate is finite: for real coordinates the
  eight products sum to the reference's expression (the factor -2 crosses the sum; this is where finiteness is used);
  the clamp `max · 0` is monotone, so it passes through a minimum taken from +∞; and division by the positive real
  16384 distributes over every sum. The kernel's one grid point stores that value in its 1×1 block, which is the whole
  result array, and the host line after the call recasts it as the scalar. The ideal pass rewrote nothing, so
  `preserves` is `True`.
-/
import proofs.«181836_g19164144075462_retrytranche2_391_24_alg».proof.Defs
import proofs.«181836_g19164144075462_retrytranche2_391_24_alg».proof.Proof.Gen.Kernel
import proofs.«181836_g19164144075462_retrytranche2_391_24_alg».proof.Proof.Gen.Kernel.Skeleton
import proofs.«181836_g19164144075462_retrytranche2_391_24_alg».proof.Proof.Gen.Kernel.Launch
import proofs.«181836_g19164144075462_retrytranche2_391_24_alg».proof.Proof.Gen.Kernel.Points
import proofs.«181836_g19164144075462_retrytranche2_391_24_alg».proof.Proof.Gen.Kernel.Frame
import proofs.«181836_g19164144075462_retrytranche2_391_24_alg».proof.Proof.Gen.KernelIdeal
import proofs.«181836_g19164144075462_retrytranche2_391_24_alg».proof.Proof.Gen.KernelIdeal.Skeleton
import proofs.«181836_g19164144075462_retrytranche2_391_24_alg».proof.Proof.Gen.KernelIdeal.Launch
import proofs.«181836_g19164144075462_retrytranche2_391_24_alg».proof.Proof.Gen.KernelIdeal.Points
import proofs.«181836_g19164144075462_retrytranche2_391_24_alg».proof.Proof.Gen.KernelIdeal.Frame
import proofs.«181836_g19164144075462_retrytranche2_391_24_alg».proof.Proof.Gen.ReferenceIdeal
import proofs.«181836_g19164144075462_retrytranche2_391_24_alg».proof.Proof.Gen.ReferenceIdeal.Run
import proofs.«181836_g19164144075462_retrytranche2_391_24_alg».proof.Proof.Gen.ReferenceIdeal.Read
import proofs.«181836_g19164144075462_retrytranche2_391_24_alg».proof.Proof.Gen.Pre_finite_inputs
import proofs.«181836_g19164144075462_retrytranche2_391_24_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the loss of the kernel's tables of the first program's arguments: the kernel by its run, the
    reference because its own loss of its own table is that value for finite arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1⟩ := Cert.Bridge.finite_of_pre _ _ (hpre c)
  rw [Cert.ReferenceIdeal.Read.val_main_v22_eq, (hagree c).1, (hagree c).2]
  funext i
  rw [Cert.ReferenceIdeal.RefValue.result_apply]
  exact Cert.Bridge.losses_eq _ _ f0 f1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
